-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64 : Shape := ⟨2, ![3, 64]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3x64 .f32) (main_arg9 : FVec F S3 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S3x64 .f32) (main_arg9 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S3x64 .f32) (main_arg9 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64 : Shape := ⟨2, ![3, 64]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S64x3 : Shape := ⟨2, ![64, 3]⟩
abbrev S1x3 : Shape := ⟨2, ![1, 3]⟩
abbrev S100000x3 : Shape := ⟨2, ![100000, 3]⟩
abbrev S10000x3 : Shape := ⟨2, ![10000, 3]⟩

abbrev nBuf : Space → Nat
  | .hbm => 50
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S3x64, .f32⟩
  | .hbm, ⟨9, _⟩ => ⟨S3, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S64x64, .f32⟩
  | .hbm, ⟨28, _⟩ => ⟨S64x64, .f32⟩
  | .hbm, ⟨29, _⟩ => ⟨S1x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S64x64, .f32⟩
  | .hbm, ⟨45, _⟩ => ⟨S64x64, .f32⟩
  | .hbm, ⟨46, _⟩ => ⟨S1x64, .f32⟩
  | .hbm, ⟨47, _⟩ => ⟨S64x3, .f32⟩
  | .hbm, ⟨48, _⟩ => ⟨S1x3, .f32⟩
  | .hbm, ⟨49, _⟩ => ⟨S100000x3, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x3, .f32⟩
  | .local _ .vmem, ⟨17, _⟩ => ⟨S1x3, .f32⟩
  | .local _ .vmem, ⟨18, _⟩ => ⟨S10000x3, .f32⟩
  | .local _ .vmem, ⟨19, _⟩ => ⟨S10000x3, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S3x64_S64x3_1_0 : S3x64.Transposes [1, 0] S64x3
  shapeCasts_S3_S1x3 : S3.ShapeCasts S1x3
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x3.size a ≤ S64x3.size a
  hwx1_5 : ∀ i : grid1.Coords, EltTy.bits .f32 = 32 ∨ (Rect.block (s := S64x3) S64x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x3.size a ≤ S100000x3.size a
  hwx1_7 : ∀ i : grid1.Coords, EltTy.bits .f32 = 32 ∨ (Rect.block (s := S100000x3) S10000x3.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S64x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S10000x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64 : Shape := ⟨2, ![3, 64]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S64x3 : Shape := ⟨2, ![64, 3]⟩
abbrev S100000x3 : Shape := ⟨2, ![100000, 3]⟩
abbrev S1x3 : Shape := ⟨2, ![1, 3]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S3x64, .f32⟩
  | .hbm, ⟨9, _⟩ => ⟨S3, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S64x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S64x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S64x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S64x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S64x3, .f32⟩
  | .hbm, ⟨63, _⟩ => ⟨S100000x3, .f32⟩
  | .hbm, ⟨64, _⟩ => ⟨S1x3, .f32⟩
  | .hbm, ⟨65, _⟩ => ⟨S100000x3, .f32⟩
  | .hbm, ⟨66, _⟩ => ⟨S100000x3, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S3x64_S64x3_1_0 : S3x64.Transposes [1, 0] S64x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Payload0.lean ====
/-
  The first kernel body's stored value, read at one entry.

  The body of the first region loads a block of 10000 node rows, the matching block of aggregated neighbour rows, the
  two transposed 64×64 weight matrices and the bias row, and stores

      max ((agg · Wrelᵀ + x · Wrootᵀ) + bias, 0).

  Over the extended reals a change of float format is the identity and a matrix product into zeros is the textbook
  inner product, so entry (r, k) of the stored block depends only on row r of the two loaded blocks, on column k of
  the two weight matrices and on entry k of the bias row.
-/
import proofs.«160873_j33775622815757_1_alg».proof.Proof.Gen.KernelIdeal.Skeleton
import proofs.«160873_j33775622815757_1_alg».proof.Proof.LibMatmulNN
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-- A [1, 64] row broadcast down 10000 rows, read at (r, k), is the row's entry k. -/
theorem biasRow64_apply (v : Vec Ideal S1x64 .f32) (r : Fin 10000) (k : Fin 64) :
    broadcastTo S10000x64 v broadcasts_S1x64_S10000x64 (ix2 r k) = v (ix2 (0 : Fin 1) k) := by
  exact broadcastTo_apply v broadcasts_S1x64_S10000x64 (ix2 r k) (ix2 (0 : Fin 1) k) (fun a => match a with
    | ⟨0, _⟩ => by show 0 = if (1 : Nat) = 1 then 0 else _; rw [if_pos rfl]
    | ⟨1, _⟩ => by show k.val = if (64 : Nat) = 1 then 0 else _; rw [if_neg (by decide)]; rfl)

/-- Entry (r, k) of the first body's stored block: the rectified sum of row r of the aggregated block against column k
    of the neighbour weights, row r of the node block against column k of the root weights, and the bias at k. -/
theorem pay0_apply (x0 x1 : Vec Ideal S10000x64 .f32) (x5 x8 : Vec Ideal S64x64 .f32) (x14 : Vec Ideal S1x64 .f32)
    (r : Fin 10000) (k : Fin 64) :
    k0_pay1 (F := Ideal) x0 x1 x5 x8 x14 (ix2 r k)
      = max (((∑ j : Fin 64, x1 (ix2 r j) * x5 (ix2 j k)) + ∑ j : Fin 64, x0 (ix2 r j) * x8 (ix2 j k)) + x14 (ix2 (0 : Fin 1) k))
          (Ideal.ofBits .f32 0x00000000#32) := by
  unfold k0_pay1
  simp only [shapeCast_self]
  refine congrArg₂ max (congrArg₂ HAdd.hAdd (congrArg₂ HAdd.hAdd ?_ ?_) ?_) rfl
  · exact Cert.MatmulNN.matmul_zero_apply dot_S10000x64_S64x64_S10000x64_1_0_0_1_n_n rfl none _ _ r k
  · exact Cert.MatmulNN.matmul_zero_apply dot_S10000x64_S64x64_S10000x64_1_0_0_1_n_n rfl none _ _ r k
  · exact biasRow64_apply x14 r k

end Cert.KernelIdeal.Body

end
-- ==== Proof.Blocks0.lean ====
/-
  The first region's output array as one function of the arrays the region finds.

  The grid has ten points; point t stages rows 10000·t … 10000·t + 9999 of the node array and of the aggregated array,
  the whole of the two weight matrices and of the bias row, and writes back rows 10000·t … 10000·t + 9999 of the hidden
  array. Entry (r, k) of what the body stores depends only on row r of the two row blocks, so the block point t writes
  back is block t of ONE function of the arrays: entry (p, k) is the rectified sum of row p of the aggregated array
  against column k of the neighbour weights, row p of the node array against column k of the root weights, and the
  bias at k. The ten blocks tile the hidden array, so after the region the array is that function everywhere.
-/
import proofs.«160873_j33775622815757_1_alg».proof.Proof.Gen.KernelIdeal.Frame
import proofs.«160873_j33775622815757_1_alg».proof.Proof.Payload0
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps of the first region, decided over its ten grid points: the three row windows sit at block
    row t, every other block index is zero. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt0 (t : Fin cfg0.N) : t.val < 10 := Nat.lt_of_lt_of_eq t.isLt N_0

/-- Row r of point t's blocks is row 10000·t + r of the arrays. -/
abbrev row0 (t : Fin cfg0.N) (r : Fin 10000) : Fin 100000 := ⟨t.val * 10000 + r.val, by have := point_lt0 t; omega⟩

/-- The node block of point t at (r, j) is the node array at (10000·t + r, j). -/
theorem read0_node (c : Dev nD) (t : Fin cfg0.N) (r : Fin 10000) (j : Fin 64) :
    iblk0 V c 0 t (ix2 r j) = V c main_arg0 (ix2 (row0 t r) j) := by
  obtain ⟨e0, e1, -⟩ := index_facts0 t
  show V c main_arg0 (((cfg0.win 0).blk t).view.emb (ix2 r j)) = V c main_arg0 (ix2 (row0 t r) j)
  refine congrArg (V c main_arg0) (funext fun a => Fin.ext ?_)
  match a with
  | ⟨0, _⟩ => show win0_0.index t (0 : Fin 2) * 10000 + 1 * r.val = t.val * 10000 + r.val; omega
  | ⟨1, _⟩ => show win0_0.index t (1 : Fin 2) * 64 + 1 * j.val = j.val; omega

/-- The aggregated block of point t at (r, j) is the aggregated array at (10000·t + r, j). -/
theorem read0_agg (c : Dev nD) (t : Fin cfg0.N) (r : Fin 10000) (j : Fin 64) :
    iblk0 V c 1 t (ix2 r j) = V c main_v13 (ix2 (row0 t r) j) := by
  obtain ⟨-, -, e0, e1, -⟩ := index_facts0 t
  show V c main_v13 (((cfg0.win 1).blk t).view.emb (ix2 r j)) = V c main_v13 (ix2 (row0 t r) j)
  refine congrArg (V c main_v13) (funext fun a => Fin.ext ?_)
  match a with
  | ⟨0, _⟩ => show win0_1.index t (0 : Fin 2) * 10000 + 1 * r.val = t.val * 10000 + r.val; omega
  | ⟨1, _⟩ => show win0_1.index t (1 : Fin 2) * 64 + 1 * j.val = j.val; omega

/-- The neighbour-weight block of every point is the whole matrix. -/
theorem read0_wrel (c : Dev nD) (t : Fin cfg0.N) (j k : Fin 64) :
    iblk0 V c 2 t (ix2 j k) = V c main_v14 (ix2 j k) := by
  obtain ⟨-, -, -, -, e0, e1, -⟩ := index_facts0 t
  show V c main_v14 (((cfg0.win 2).blk t).view.emb (ix2 j k)) = V c main_v14 (ix2 j k)
  refine congrArg (V c main_v14) (funext fun a => Fin.ext ?_)
  match a with
  | ⟨0, _⟩ => show win0_2.index t (0 : Fin 2) * 64 + 1 * j.val = j.val; omega
  | ⟨1, _⟩ => show win0_2.index t (1 : Fin 2) * 64 + 1 * k.val = k.val; omega

/-- The bias block of every point is the whole row. -/
theorem read0_bias (c : Dev nD) (t : Fin cfg0.N) (k : Fin 64) :
    iblk0 V c 3 t (ix2 (0 : Fin 1) k) = V c main_v16 (ix2 (0 : Fin 1) k) := by
  obtain ⟨-, -, -, -, -, -, e0, e1, -⟩ := index_facts0 t
  show V c main_v16 (((cfg0.win 3).blk t).view.emb (ix2 (0 : Fin 1) k)) = V c main_v16 (ix2 (0 : Fin 1) k)
  refine congrArg (V c main_v16) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

/-- The root-weight block of every point is the whole matrix. -/
theorem read0_wroot (c : Dev nD) (t : Fin cfg0.N) (j k : Fin 64) :
    iblk0 V c 4 t (ix2 j k) = V c main_v15 (ix2 j k) := by
  obtain ⟨-, -, -, -, -, -, -, -, e0, e1, -⟩ := index_facts0 t
  show V c main_v15 (((cfg0.win 4).blk t).view.emb (ix2 j k)) = V c main_v15 (ix2 j k)
  refine congrArg (V c main_v15) (funext fun a => Fin.ext ?_)
  match a with
  | ⟨0, _⟩ => show win0_4.index t (0 : Fin 2) * 64 + 1 * j.val = j.val; omega
  | ⟨1, _⟩ => show win0_4.index t (1 : Fin 2) * 64 + 1 * k.val = k.val; omega

/-- Entry (p, k) of the hidden array: the rectified sum of row p of the aggregated array against column k of the
    neighbour weights, row p of the node array against column k of the root weights, and the bias at k. -/
def hiddenAt (x a : S100000x64.Idx → EReal) (wr wo : S64x64.Idx → EReal) (b : S1x64.Idx → EReal)
    (p : Fin 100000) (k : Fin 64) : EReal :=
  max (((∑ j : Fin 64, a (ix2 p j) * wr (ix2 j k)) + ∑ j : Fin 64, x (ix2 p j) * wo (ix2 j k)) + b (ix2 (0 : Fin 1) k))
    (Ideal.ofBits .f32 0x00000000#32)

/-- The hidden array as one function of the node array, the aggregated array, the two weight matrices and the bias row. -/
def hidden (x a : S100000x64.Idx → EReal) (wr wo : S64x64.Idx → EReal) (b : S1x64.Idx → EReal) :
    S100000x64.Idx → EReal :=
  fun i => hiddenAt x a wr wo b ⟨(i 0).val, idx2_lt0 i⟩ ⟨(i 1).val, idx2_lt1 i⟩

theorem hidden_ix2 (x a : S100000x64.Idx → EReal) (wr wo : S64x64.Idx → EReal) (b : S1x64.Idx → EReal)
    (p : Fin 100000) (k : Fin 64) : hidden x a wr wo b (ix2 p k) = hiddenAt x a wr wo b p k := rfl

/-- What point t writes back is block t of the hidden array's function of the arrays the region finds. -/
theorem flushed0_eq (c : Dev nD) (t : Fin cfg0.N) :
    (dat0 V c).flushed 5 t = ((cfg0.win 5).blk t).view.read (Elt Ideal)
      (hidden (V c main_arg0) (V c main_v13) (V c main_v14) (V c main_v15) (V c main_v16)) := by
  show (cfg0.win 5).cut (grid0.coords t) ((dat0 V c).after 5 t) = _
  rw [after0_5]
  unfold out0_5
  rw [View.canon_unit_zero zero2]
  simp only [View.ld_unit_zero (S := S10000x64) zero2, View.ld_unit_zero (S := S64x64) zero2, View.ld_unit_zero (S := S1x64) zero2]
  obtain ⟨-, -, -, -, -, -, -, -, -, -, e0, e1⟩ := index_facts0 t
  funext y
  obtain ⟨r, k, rfl⟩ : ∃ (r : Fin 10000) (k : Fin 64), y = ix2 r k := ⟨y 0, y 1, eq_ix2 y⟩
  show k0_pay1 (iblk0 V c 0 t) (iblk0 V c 1 t) (iblk0 V c 2 t) (iblk0 V c 4 t) (iblk0 V c 3 t) (ix2 r k)
      = hidden (V c main_arg0) (V c main_v13) (V c main_v14) (V c main_v15) (V c main_v16) (((cfg0.win 5).blk t).view.emb (ix2 r k))
  have hi : ((cfg0.win 5).blk t).view.emb (ix2 r k) = ix2 (row0 t r) k := funext fun a => Fin.ext (by
    match a with
    | ⟨0, _⟩ => show win0_5.index t (0 : Fin 2) * 10000 + 1 * r.val = t.val * 10000 + r.val; omega
    | ⟨1, _⟩ => show win0_5.index t (1 : Fin 2) * 64 + 1 * k.val = k.val; omega)
  rw [hi, hidden_ix2]
  refine (Body.pay0_apply (iblk0 V c 0 t) (iblk0 V c 1 t) (iblk0 V c 2 t) (iblk0 V c 4 t) (iblk0 V c 3 t) r k).trans ?_
  unfold hiddenAt
  simp only [read0_node, read0_agg, read0_wrel, read0_wroot, read0_bias]

/-- An index of the hidden array is in point t's block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v17).slice (win0_5.rect t)).set ↔ _
  rw [View.set_slice_whole, Rect.mem_set_unit]
  exact Iff.rfl

/-- The ten blocks cover the hidden array: row p lies in the block of point p / 10000. -/
theorem cover0 (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have ht : (i 0).val / 10000 < cfg0.N := Nat.lt_of_lt_of_eq (by omega : (i 0).val / 10000 < 10) N_0.symm
  refine ⟨⟨(i 0).val / 10000, ht⟩, flush0_5 _, ?_⟩
  rw [mem_blk0]
  obtain ⟨-, -, -, -, -, -, -, -, -, -, e0, e1⟩ := index_facts0 ⟨(i 0).val / 10000, ht⟩
  have e0' : win0_5.index ⟨(i 0).val / 10000, ht⟩ (0 : Fin 2) = (i 0).val / 10000 := e0
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    omega
  | ⟨1, _⟩ =>
    show win0_5.index ⟨(i 0).val / 10000, ht⟩ (1 : Fin 2) * 64 ≤ (i 1).val
      ∧ (i 1).val < win0_5.index ⟨(i 0).val / 10000, ht⟩ (1 : Fin 2) * 64 + 64
    omega

/-- After the region the hidden array is its function of the arrays the region found. -/
theorem final0 (c : Dev nD) :
    (dat0 V c).arrAt 5 cfg0.N = hidden (V c main_arg0) (V c main_v13) (V c main_v14) (V c main_v15) (V c main_v16) :=
  (dat0 V c).arrAt_eq_of_cover 5 _ (fun t _ => flushed0_eq V c t) cover0

end Cert.KernelIdeal.Whole

end
-- ==== Proof.Payload1.lean ====
/-
  The second kernel body's stored value, read at one entry.

  The body of the second region loads a block of 10000 hidden rows, the matching block of aggregated hidden rows, the
  second layer's two transposed weight matrices and bias row, and the head's transposed 64×3 weights and bias row; it
  forms the second rectified layer exactly as the first body does and stores

      max ((agg · Wrelᵀ + h · Wrootᵀ) + bias, 0) · Wlinᵀ + blin.

  Entry (r, q) of the stored block therefore depends only on row r of the two loaded blocks: it is the inner product of
  the 64 rectified layer entries of row r with column q of the head's weights, plus the head's bias at q.
-/
import proofs.«160873_j33775622815757_1_alg».proof.Proof.Payload0

noncomputable section

namespace Cert.KernelIdeal.Body

open Cert.KernelIdeal Cert.KernelIdeal.Gen Idealize.ShloMosaic Idealize.ShloMosaic.TcCoe Idealize.ShloMosaic.ValueIdx

/-- A [1, 3] row broadcast down 10000 rows, read at (r, q), is the row's entry q. -/
theorem biasRow3_apply (v : Vec Ideal S1x3 .f32) (r : Fin 10000) (q : Fin 3) :
    broadcastTo S10000x3 v broadcasts_S1x3_S10000x3 (ix2 r q) = v (ix2 (0 : Fin 1) q) := by
  exact broadcastTo_apply v broadcasts_S1x3_S10000x3 (ix2 r q) (ix2 (0 : Fin 1) q) (fun a => match a with
    | ⟨0, _⟩ => by show 0 = if (1 : Nat) = 1 then 0 else _; rw [if_pos rfl]
    | ⟨1, _⟩ => by show q.val = if (3 : Nat) = 1 then 0 else _; rw [if_neg (by decide)]; rfl)

/-- Entry (r, q) of the second body's stored block: the 64 rectified second-layer entries of row r against column q of
    the head's weights, plus the head's bias at q. -/
theorem pay1_apply (x0 x2 : Vec Ideal S10000x64 .f32) (x6 x9 : Vec Ideal S64x64 .f32) (x15 : Vec Ideal S1x64 .f32)
    (x22 : Vec Ideal S64x3 .f32) (x26 : Vec Ideal S1x3 .f32) (r : Fin 10000) (q : Fin 3) :
    k1_pay1 (F := Ideal) x0 x2 x6 x9 x15 x22 x26 (ix2 r q)
      = (∑ k : Fin 64,
            max (((∑ j : Fin 64, x2 (ix2 r j) * x6 (ix2 j k)) + ∑ j : Fin 64, x0 (ix2 r j) * x9 (ix2 j k)) + x15 (ix2 (0 : Fin 1) k))
              (Ideal.ofBits .f32 0x00000000#32) * x22 (ix2 k q))
          + x26 (ix2 (0 : Fin 1) q) := by
  unfold k1_pay1
  simp only [shapeCast_self]
  refine congrArg₂ HAdd.hAdd ?_ (biasRow3_apply x26 r q)
  refine (Cert.MatmulNN.matmul_zero_apply dot_S10000x64_S64x3_S10000x3_1_0_0_1_n_n rfl none _ _ r q).trans
    (Finset.sum_congr rfl fun k _ => congrArg₂ HMul.hMul ?_ rfl)
  refine congrArg₂ max (congrArg₂ HAdd.hAdd (congrArg₂ HAdd.hAdd ?_ ?_) ?_) rfl
  · exact Cert.MatmulNN.matmul_zero_apply dot_S10000x64_S64x64_S10000x64_1_0_0_1_n_n rfl none _ _ r k
  · exact Cert.MatmulNN.matmul_zero_apply dot_S10000x64_S64x64_S10000x64_1_0_0_1_n_n rfl none _ _ r k
  · exact biasRow64_apply x15 r k

end Cert.KernelIdeal.Body

end
-- ==== Proof.Blocks1.lean ====
/-
  The second region's output array as one function of the arrays the region finds.

  The grid again has ten points; point t stages rows 10000·t … 10000·t + 9999 of the hidden array and of its aggregate,
  the whole of the second layer's weight matrices and bias row and of the head's weights and bias row, and writes back
  rows 10000·t … 10000·t + 9999 of the [100000, 3] result. Entry (r, q) of what the body stores depends only on row r of
  the two row blocks, so the block point t writes back is block t of ONE function of the arrays: entry (p, q) is the
  inner product of the 64 second-layer entries of row p with column q of the head's weights, plus the head's bias at
  q. The ten blocks tile the result, so after the region the result array is that function everywhere.
-/
import proofs.«160873_j33775622815757_1_alg».proof.Proof.Blocks0
import proofs.«160873_j33775622815757_1_alg».proof.Proof.Payload1

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps of the second region, decided over its ten grid points: the three row windows sit at block
    row t, every other block index is zero. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt1 (t : Fin cfg1.N) : t.val < 10 := Nat.lt_of_lt_of_eq t.isLt N_1

/-- Row r of point t's blocks is row 10000·t + r of the arrays. -/
abbrev row1 (t : Fin cfg1.N) (r : Fin 10000) : Fin 100000 := ⟨t.val * 10000 + r.val, by have := point_lt1 t; omega⟩

/-- The hidden block of point t at (r, j) is the hidden array at (10000·t + r, j). -/
theorem read1_hid (c : Dev nD) (t : Fin cfg1.N) (r : Fin 10000) (j : Fin 64) :
    iblk1 V c 0 t (ix2 r j) = V c main_v17 (ix2 (row1 t r) j) := by
  obtain ⟨e0, e1, -⟩ := index_facts1 t
  show V c main_v17 (((cfg1.win 0).blk t).view.emb (ix2 r j)) = V c main_v17 (ix2 (row1 t r) j)
  refine congrArg (V c main_v17) (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * j.val = j.val; omega

/-- The aggregated block of point t at (r, j) is the aggregated array at (10000·t + r, j). -/
theorem read1_agg (c : Dev nD) (t : Fin cfg1.N) (r : Fin 10000) (j : Fin 64) :
    iblk1 V c 1 t (ix2 r j) = V c main_v27 (ix2 (row1 t r) j) := by
  obtain ⟨-, -, e0, e1, -⟩ := index_facts1 t
  show V c main_v27 (((cfg1.win 1).blk t).view.emb (ix2 r j)) = V c main_v27 (ix2 (row1 t r) j)
  refine congrArg (V c main_v27) (funext fun a => Fin.ext ?_)
  match a with
  | ⟨0, _⟩ => show win1_1.index t (0 : Fin 2) * 10000 + 1 * r.val = t.val * 10000 + r.val; omega
  | ⟨1, _⟩ => show win1_1.index t (1 : Fin 2) * 64 + 1 * j.val = j.val; omega

/-- The neighbour-weight block of every point is the whole matrix. -/
theorem read1_wrel (c : Dev nD) (t : Fin cfg1.N) (j k : Fin 64) :
    iblk1 V c 2 t (ix2 j k) = V c main_v28 (ix2 j k) := by
  obtain ⟨-, -, -, -, e0, e1, -⟩ := index_facts1 t
  show V c main_v28 (((cfg1.win 2).blk t).view.emb (ix2 j k)) = V c main_v28 (ix2 j k)
  refine congrArg (V c main_v28) (funext fun a => Fin.ext ?_)
  match a with
  | ⟨0, _⟩ => show win1_2.index t (0 : Fin 2) * 64 + 1 * j.val = j.val; omega
  | ⟨1, _⟩ => show win1_2.index t (1 : Fin 2) * 64 + 1 * k.val = k.val; omega

/-- The bias block of every point is the whole row. -/
theorem read1_bias (c : Dev nD) (t : Fin cfg1.N) (k : Fin 64) :
    iblk1 V c 3 t (ix2 (0 : Fin 1) k) = V c main_v30 (ix2 (0 : Fin 1) k) := by
  obtain ⟨-, -, -, -, -, -, e0, e1, -⟩ := index_facts1 t
  show V c main_v30 (((cfg1.win 3).blk t).view.emb (ix2 (0 : Fin 1) k)) = V c main_v30 (ix2 (0 : Fin 1) k)
  refine congrArg (V c main_v30) (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- The root-weight block of every point is the whole matrix. -/
theorem read1_wroot (c : Dev nD) (t : Fin cfg1.N) (j k : Fin 64) :
    iblk1 V c 4 t (ix2 j k) = V c main_v29 (ix2 j k) := by
  obtain ⟨-, -, -, -, -, -, -, -, e0, e1, -⟩ := index_facts1 t
  show V c main_v29 (((cfg1.win 4).blk t).view.emb (ix2 j k)) = V c main_v29 (ix2 j k)
  refine congrArg (V c main_v29) (funext fun a => Fin.ext ?_)
  match a with
  | ⟨0, _⟩ => show win1_4.index t (0 : Fin 2) * 64 + 1 * j.val = j.val; omega
  | ⟨1, _⟩ => show win1_4.index t (1 : Fin 2) * 64 + 1 * k.val = k.val; omega

/-- The head-weight block of every point is the whole [64, 3] matrix. -/
theorem read1_wlin (c : Dev nD) (t : Fin cfg1.N) (k : Fin 64) (q : Fin 3) :
    iblk1 V c 5 t (ix2 k q) = V c main_v31 (ix2 k q) := by
  obtain ⟨-, -, -, -, -, -, -, -, -, -, e0, e1, -⟩ := index_facts1 t
  show V c main_v31 (((cfg1.win 5).blk t).view.emb (ix2 k q)) = V c main_v31 (ix2 k q)
  refine congrArg (V c main_v31) (funext fun a => Fin.ext ?_)
  match a with
  | ⟨0, _⟩ => show win1_5.index t (0 : Fin 2) * 64 + 1 * k.val = k.val; omega
  | ⟨1, _⟩ => show win1_5.index t (1 : Fin 2) * 3 + 1 * q.val = q.val; omega

/-- The head-bias block of every point is the whole row. -/
theorem read1_blin (c : Dev nD) (t : Fin cfg1.N) (q : Fin 3) :
    iblk1 V c 6 t (ix2 (0 : Fin 1) q) = V c main_v32 (ix2 (0 : Fin 1) q) := by
  obtain ⟨-, -, -, -, -, -, -, -, -, -, -, -, e0, e1, -⟩ := index_facts1 t
  show V c main_v32 (((cfg1.win 6).blk t).view.emb (ix2 (0 : Fin 1) q)) = V c main_v32 (ix2 (0 : Fin 1) q)
  refine congrArg (V c main_v32) (funext fun a => Fin.ext ?_)
  match a with
  | ⟨0, _⟩ => show win1_6.index t (0 : Fin 2) * 1 + 1 * 0 = 0; omega
  | ⟨1, _⟩ => show win1_6.index t (1 : Fin 2) * 3 + 1 * q.val = q.val; omega

/-- Entry (p, q) of the result: the 64 second-layer entries of row p against column q of the head's weights, plus the
    head's bias at q. -/
def resultAt (h a : S100000x64.Idx → EReal) (wr wo : S64x64.Idx → EReal) (b : S1x64.Idx → EReal)
    (wl : S64x3.Idx → EReal) (bl : S1x3.Idx → EReal) (p : Fin 100000) (q : Fin 3) : EReal :=
  (∑ k : Fin 64, hiddenAt h a wr wo b p k * wl (ix2 k q)) + bl (ix2 (0 : Fin 1) q)

/-- The result array as one function of the hidden array, its aggregate, the second layer's weights and bias and the
    head's weights and bias. -/
def result (h a : S100000x64.Idx → EReal) (wr wo : S64x64.Idx → EReal) (b : S1x64.Idx → EReal)
    (wl : S64x3.Idx → EReal) (bl : S1x3.Idx → EReal) : S100000x3.Idx → EReal :=
  fun i => resultAt h a wr wo b wl bl ⟨(i 0).val, idx2_lt0 i⟩ ⟨(i 1).val, idx2_lt1 i⟩

theorem result_ix2 (h a : S100000x64.Idx → EReal) (wr wo : S64x64.Idx → EReal) (b : S1x64.Idx → EReal)
    (wl : S64x3.Idx → EReal) (bl : S1x3.Idx → EReal) (p : Fin 100000) (q : Fin 3) :
    result h a wr wo b wl bl (ix2 p q) = resultAt h a wr wo b wl bl p q := rfl

/-- What point t writes back is block t of the result's function of the arrays the region finds. -/
theorem flushed1_eq (c : Dev nD) (t : Fin cfg1.N) :
    (dat1 V c).flushed 7 t = ((cfg1.win 7).blk t).view.read (Elt Ideal)
      (result (V c main_v17) (V c main_v27) (V c main_v28) (V c main_v29) (V c main_v30) (V c main_v31) (V c main_v32)) := by
  show (cfg1.win 7).cut (grid1.coords t) ((dat1 V c).after 7 t) = _
  rw [after1_7]
  unfold out1_7
  rw [View.canon_unit_zero zero2]
  simp only [View.ld_unit_zero (S := S10000x64) zero2, View.ld_unit_zero (S := S64x64) zero2, View.ld_unit_zero (S := S1x64) zero2,
    View.ld_unit_zero (S := S64x3) zero2, View.ld_unit_zero (S := S1x3) zero2]
  obtain ⟨-, -, -, -, -, -, -, -, -, -, -, -, -, -, e0, e1⟩ := index_facts1 t
  funext y
  obtain ⟨r, q, rfl⟩ : ∃ (r : Fin 10000) (q : Fin 3), y = ix2 r q := ⟨y 0, y 1, eq_ix2 y⟩
  show k1_pay1 (iblk1 V c 0 t) (iblk1 V c 1 t) (iblk1 V c 2 t) (iblk1 V c 4 t) (iblk1 V c 3 t) (iblk1 V c 5 t) (iblk1 V c 6 t) (ix2 r q)
      = result (V c main_v17) (V c main_v27) (V c main_v28) (V c main_v29) (V c main_v30) (V c main_v31) (V c main_v32)
          (((cfg1.win 7).blk t).view.emb (ix2 r q))
  have hi : ((cfg1.win 7).blk t).view.emb (ix2 r q) = ix2 (row1 t r) q := funext fun a => Fin.ext (by
    match a with
    | ⟨0, _⟩ => show win1_7.index t (0 : Fin 2) * 10000 + 1 * r.val = t.val * 10000 + r.val; omega
    | ⟨1, _⟩ => show win1_7.index t (1 : Fin 2) * 3 + 1 * q.val = q.val; omega)
  rw [hi, result_ix2]
  refine (Body.pay1_apply (iblk1 V c 0 t) (iblk1 V c 1 t) (iblk1 V c 2 t) (iblk1 V c 4 t) (iblk1 V c 3 t) (iblk1 V c 5 t) (iblk1 V c 6 t) r q).trans ?_
  unfold resultAt hiddenAt
  simp only [read1_hid, read1_agg, read1_wrel, read1_wroot, read1_bias, read1_wlin, read1_blin]

/-- An index of the result is in point t's block iff each coordinate is in the block's range on its axis. -/
theorem mem_blk1 (t : Fin cfg1.N) (i : S100000x3.Idx) :
    i ∈ ((cfg1.win 7).blk t).view.set ↔ ∀ a : Fin 2, win1_7.index t a * S10000x3.size a ≤ (i a).val
      ∧ (i a).val < win1_7.index t a * S10000x3.size a + S10000x3.size a := by
  show i ∈ ((View.whole main_v33).slice (win1_7.rect t)).set ↔ _
  rw [View.set_slice_whole, Rect.mem_set_unit]
  exact Iff.rfl

/-- The ten blocks cover the result: row p lies in the block of point p / 10000. -/
theorem cover1 (i : S100000x3.Idx) :
    ∃ t : Fin cfg1.N, (cfg1.win 7).flush t = true ∧ i ∈ ((cfg1.win 7).blk t).view.set := by
  have hi0 : (i 0).val < 100000 := idx2_lt0 i
  have hi1 : (i 1).val < 3 := idx2_lt1 i
  have ht : (i 0).val / 10000 < cfg1.N := Nat.lt_of_lt_of_eq (by omega : (i 0).val / 10000 < 10) N_1.symm
  refine ⟨⟨(i 0).val / 10000, ht⟩, flush1_7 _, ?_⟩
  rw [mem_blk1]
  obtain ⟨-, -, -, -, -, -, -, -, -, -, -, -, -, -, e0, e1⟩ := index_facts1 ⟨(i 0).val / 10000, ht⟩
  have e0' : win1_7.index ⟨(i 0).val / 10000, ht⟩ (0 : Fin 2) = (i 0).val / 10000 := e0
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    omega
  | ⟨1, _⟩ =>
    show win1_7.index ⟨(i 0).val / 10000, ht⟩ (1 : Fin 2) * 3 ≤ (i 1).val
      ∧ (i 1).val < win1_7.index ⟨(i 0).val / 10000, ht⟩ (1 : Fin 2) * 3 + 3
    omega

/-- After the region the result array is its function of the arrays the region found. -/
theorem final1 (c : Dev nD) :
    (dat1 V c).arrAt 7 cfg1.N
      = result (V c main_v17) (V c main_v27) (V c main_v28) (V c main_v29) (V c main_v30) (V c main_v31) (V c main_v32) :=
  (dat1 V c).arrAt_eq_of_cover 7 _ (fun t _ => flushed1_eq V c t) cover1

end Cert.KernelIdeal.Whole

end
-- ==== Proof.HostReads.lean ====
/-
  What each region finds in its arrays, as host operations of the launch contents.

  Before the first region the host computes the edge list's source and destination rows, gathers the node rows at the
  sources and scatter-adds them into zeros at the destinations (the aggregated array), transposes the first layer's two
  weight matrices and reshapes its bias to a row. Between the regions it does the same with the hidden array in place
  of the node array and the second layer's weights, and transposes the head's weights and reshapes its bias. The
  aggregation is kept as ONE function of the array it gathers from and of the two index vectors: both layers apply
  the same function, and nothing about which rows it reads or adds is needed.
-/
import proofs.«160873_j33775622815757_1_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-- The edges' source rows: row 0 of the [2, E] edge list. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' destination rows: row 1 of the edge list. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The neighbour aggregation: the rows of `x` at the sources (a negative source wrapped by the row count first),
    scatter-added into zeros at the destinations. -/
def aggregate (x : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## The two host stretches over any contents -/

section Stretches

variable (W : Valuation τ sig (Elt F))

theorem ops0_src : StableHlo.after hostOps0 W (Proc.devRef .tc main_v1) = srcOf (W (Proc.devRef .tc main_arg1)) := by
  after_results <;> rfl

theorem ops0_dst : StableHlo.after hostOps0 W (Proc.devRef .tc main_v3) = dstOf (W (Proc.devRef .tc main_arg1)) := by
  after_results <;> rfl

theorem ops0_arg0 : StableHlo.after hostOps0 W (Proc.devRef .tc main_arg0) = (W (Proc.devRef .tc main_arg0)) := by
  after_results <;> rfl

theorem ops0_arg5 : StableHlo.after hostOps0 W (Proc.devRef .tc main_arg5) = (W (Proc.devRef .tc main_arg5)) := by
  after_results <;> rfl

theorem ops0_arg6 : StableHlo.after hostOps0 W (Proc.devRef .tc main_arg6) = (W (Proc.devRef .tc main_arg6)) := by
  after_results <;> rfl

theorem ops0_arg7 : StableHlo.after hostOps0 W (Proc.devRef .tc main_arg7) = (W (Proc.devRef .tc main_arg7)) := by
  after_results <;> rfl

theorem ops0_arg8 : StableHlo.after hostOps0 W (Proc.devRef .tc main_arg8) = (W (Proc.devRef .tc main_arg8)) := by
  after_results <;> rfl

theorem ops0_arg9 : StableHlo.after hostOps0 W (Proc.devRef .tc main_arg9) = (W (Proc.devRef .tc main_arg9)) := by
  after_results <;> rfl

theorem ops0_agg : StableHlo.after hostOps0 W (Proc.devRef .tc main_v13) = aggregate (W (Proc.devRef .tc main_arg0)) (srcOf (W (Proc.devRef .tc main_arg1))) (dstOf (W (Proc.devRef .tc main_arg1))) := by
  after_results <;> rfl

theorem ops0_wrel : StableHlo.after hostOps0 W (Proc.devRef .tc main_v14) = transpose S64x64 [1, 0] (W (Proc.devRef .tc main_arg2)) transposes_S64x64_S64x64_1_0 := by
  after_results <;> rfl

theorem ops0_wroot : StableHlo.after hostOps0 W (Proc.devRef .tc main_v15) = transpose S64x64 [1, 0] (W (Proc.devRef .tc main_arg4)) transposes_S64x64_S64x64_1_0 := by
  after_results <;> rfl

theorem ops0_bias : StableHlo.after hostOps0 W (Proc.devRef .tc main_v16) = shapeCast S1x64 (W (Proc.devRef .tc main_arg3)) shapeCasts_S64_S1x64 := by
  after_results <;> rfl

theorem ops1_hid : StableHlo.after hostOps1 W (Proc.devRef .tc main_v17) = W (Proc.devRef .tc main_v17) := by
  after_results <;> rfl

theorem ops1_agg : StableHlo.after hostOps1 W (Proc.devRef .tc main_v27) = aggregate (W (Proc.devRef .tc main_v17)) (W (Proc.devRef .tc main_v1)) (W (Proc.devRef .tc main_v3)) := by
  after_results <;> rfl

theorem ops1_wrel : StableHlo.after hostOps1 W (Proc.devRef .tc main_v28) = transpose S64x64 [1, 0] (W (Proc.devRef .tc main_arg5)) transposes_S64x64_S64x64_1_0 := by
  after_results <;> rfl

theorem ops1_wroot : StableHlo.after hostOps1 W (Proc.devRef .tc main_v29) = transpose S64x64 [1, 0] (W (Proc.devRef .tc main_arg7)) transposes_S64x64_S64x64_1_0 := by
  after_results <;> rfl

theorem ops1_bias : StableHlo.after hostOps1 W (Proc.devRef .tc main_v30) = shapeCast S1x64 (W (Proc.devRef .tc main_arg6)) shapeCasts_S64_S1x64 := by
  after_results <;> rfl

theorem ops1_wlin : StableHlo.after hostOps1 W (Proc.devRef .tc main_v31) = transpose S64x3 [1, 0] (W (Proc.devRef .tc main_arg8)) transposes_S3x64_S64x3_1_0 := by
  after_results <;> rfl

theorem ops1_blin : StableHlo.after hostOps1 W (Proc.devRef .tc main_v32) = shapeCast S1x3 (W (Proc.devRef .tc main_arg9)) shapeCasts_S3_S1x3 := by
  after_results <;> rfl

end Stretches

variable (m : (ℓ : Loc nD τ sig) → Buf (Elt F) ℓ) (ρ : Dev nD → PrngReg)

/-! ## Before the first region -/

/-- The node array is the first argument. -/
theorem entry1_node (c : Dev nD) : V1 m ρ c main_arg0 = (m ((c : Thread nD τ).loc main_arg0)) := ops0_arg0 (W0 m ρ c)

/-- The aggregated array is the aggregation of the node array over the edge list. -/
theorem entry1_agg (c : Dev nD) :
    V1 m ρ c main_v13 = aggregate (m ((c : Thread nD τ).loc main_arg0)) (srcOf (m ((c : Thread nD τ).loc main_arg1))) (dstOf (m ((c : Thread nD τ).loc main_arg1))) := ops0_agg (W0 m ρ c)

theorem entry1_wrel (c : Dev nD) :
    V1 m ρ c main_v14 = transpose S64x64 [1, 0] (m ((c : Thread nD τ).loc main_arg2)) transposes_S64x64_S64x64_1_0 := ops0_wrel (W0 m ρ c)

theorem entry1_wroot (c : Dev nD) :
    V1 m ρ c main_v15 = transpose S64x64 [1, 0] (m ((c : Thread nD τ).loc main_arg4)) transposes_S64x64_S64x64_1_0 := ops0_wroot (W0 m ρ c)

theorem entry1_bias (c : Dev nD) :
    V1 m ρ c main_v16 = shapeCast S1x64 (m ((c : Thread nD τ).loc main_arg3)) shapeCasts_S64_S1x64 := ops0_bias (W0 m ρ c)

/-! ## Between the regions -/

theorem W2_src (c : Dev nD) : W2 m ρ c (Proc.devRef .tc main_v1) = srcOf (m ((c : Thread nD τ).loc main_arg1)) :=
  (W2_of_ne m ρ c main_v1 (by decide)).trans (ops0_src (W0 m ρ c))

theorem W2_dst (c : Dev nD) : W2 m ρ c (Proc.devRef .tc main_v3) = dstOf (m ((c : Thread nD τ).loc main_arg1)) :=
  (W2_of_ne m ρ c main_v3 (by decide)).trans (ops0_dst (W0 m ρ c))

theorem W2_arg5 (c : Dev nD) : W2 m ρ c (Proc.devRef .tc main_arg5) = (m ((c : Thread nD τ).loc main_arg5)) :=
  (W2_of_ne m ρ c main_arg5 (by decide)).trans (ops0_arg5 (W0 m ρ c))

theorem W2_arg6 (c : Dev nD) : W2 m ρ c (Proc.devRef .tc main_arg6) = (m ((c : Thread nD τ).loc main_arg6)) :=
  (W2_of_ne m ρ c main_arg6 (by decide)).trans (ops0_arg6 (W0 m ρ c))

theorem W2_arg7 (c : Dev nD) : W2 m ρ c (Proc.devRef .tc main_arg7) = (m ((c : Thread nD τ).loc main_arg7)) :=
  (W2_of_ne m ρ c main_arg7 (by decide)).trans (ops0_arg7 (W0 m ρ c))

theorem W2_arg8 (c : Dev nD) : W2 m ρ c (Proc.devRef .tc main_arg8) = (m ((c : Thread nD τ).loc main_arg8)) :=
  (W2_of_ne m ρ c main_arg8 (by decide)).trans (ops0_arg8 (W0 m ρ c))

theorem W2_arg9 (c : Dev nD) : W2 m ρ c (Proc.devRef .tc main_arg9) = (m ((c : Thread nD τ).loc main_arg9)) :=
  (W2_of_ne m ρ c main_arg9 (by decide)).trans (ops0_arg9 (W0 m ρ c))

/-- The second region's first array is the hidden array as the first region left it. -/
theorem entry2_hid (c : Dev nD) : V3 m ρ c main_v17 = (dat0 (V1 m ρ) c).arrAt 5 cfg0.N :=
  (ops1_hid (W2 m ρ c)).trans (W2_arr m ρ c 5)

/-- Its aggregate is the same aggregation, of the hidden array, over the same edge list. -/
theorem entry2_agg (c : Dev nD) :
    V3 m ρ c main_v27 = aggregate ((dat0 (V1 m ρ) c).arrAt 5 cfg0.N) (srcOf (m ((c : Thread nD τ).loc main_arg1))) (dstOf (m ((c : Thread nD τ).loc main_arg1))) :=
  (ops1_agg (W2 m ρ c)).trans (by rw [W2_arr m ρ c 5, W2_src m ρ c, W2_dst m ρ c])

theorem entry2_wrel (c : Dev nD) :
    V3 m ρ c main_v28 = transpose S64x64 [1, 0] (m ((c : Thread nD τ).loc main_arg5)) transposes_S64x64_S64x64_1_0 :=
  (ops1_wrel (W2 m ρ c)).trans (by rw [W2_arg5 m ρ c])

theorem entry2_wroot (c : Dev nD) :
    V3 m ρ c main_v29 = transpose S64x64 [1, 0] (m ((c : Thread nD τ).loc main_arg7)) transposes_S64x64_S64x64_1_0 :=
  (ops1_wroot (W2 m ρ c)).trans (by rw [W2_arg7 m ρ c])

theorem entry2_bias (c : Dev nD) :
    V3 m ρ c main_v30 = shapeCast S1x64 (m ((c : Thread nD τ).loc main_arg6)) shapeCasts_S64_S1x64 :=
  (ops1_bias (W2 m ρ c)).trans (by rw [W2_arg6 m ρ c])

theorem entry2_wlin (c : Dev nD) :
    V3 m ρ c main_v31 = transpose S64x3 [1, 0] (m ((c : Thread nD τ).loc main_arg8)) transposes_S3x64_S64x3_1_0 :=
  (ops1_wlin (W2 m ρ c)).trans (by rw [W2_arg8 m ρ c])

theorem entry2_blin (c : Dev nD) :
    V3 m ρ c main_v32 = shapeCast S1x3 (m ((c : Thread nD τ).loc main_arg9)) shapeCasts_S3_S1x3 :=
  (ops1_blin (W2 m ρ c)).trans (by rw [W2_arg9 m ρ c])

end Cert.KernelIdeal.Whole

end
-- ==== Proof.RunResult.lean ====
/-
  The idealized kernel's run, with its result named.

  The program is four segments: host operations, the first kernel region, host operations, the second region. Running
  the segments in order from the launch memory leaves every buffer of the TensorCore at a fold of the launch contents
  through the segments: a host stretch applies its operations, a region replaces its output array by what its grid's
  write-backs leave and keeps everything else. The final memory agrees with that fold on every buffer that outlives
  the regions: the result buffer ends at the fold's value there, and the ten argument arrays, which no segment writes,
  end as launched.
-/
import proofs.«160873_j33775622815757_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the ten argument arrays as launched. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end
-- ==== Proof.KernelValue.lean ====
/-
  The idealized kernel's result as one function of its ten arguments.

  The first region leaves the hidden array at its per-entry function of the node array, the aggregated node array,
  the first layer's transposed weights and its bias row; the second region leaves the result at its per-entry
  function of that hidden array, the aggregated hidden array, the second layer's transposed weights and bias row and
  the head's transposed weights and bias row. Substituting what the host stretches put in those arrays gives the
  result as a function of the arguments alone, and the run ends with the result buffer holding it.
-/
import proofs.«160873_j33775622815757_1_alg».proof.Proof.Blocks1
import proofs.«160873_j33775622815757_1_alg».proof.Proof.HostReads
import proofs.«160873_j33775622815757_1_alg».proof.Proof.RunResult

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

/-- The hidden array of the arguments: the first layer over the node array and its aggregate. -/
def hiddenOf (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : S100000x64.Idx → EReal :=
  hidden x0 (aggregate x0 (srcOf x1) (dstOf x1)) (transpose S64x64 [1, 0] x2 transposes_S64x64_S64x64_1_0)
    (transpose S64x64 [1, 0] x4 transposes_S64x64_S64x64_1_0) (shapeCast S1x64 x3 shapeCasts_S64_S1x64)

/-- The kernel's result of the arguments: the head over the second layer, the second layer over the hidden array and
    its aggregate. -/
def kernelOut (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S3x64, .f32⟩ : BufTy).Contents (Elt Ideal)) (x9 : (⟨S3, .f32⟩ : BufTy).Contents (Elt Ideal)) : S100000x3.Idx → EReal :=
  result (hiddenOf x0 x1 x2 x3 x4) (aggregate (hiddenOf x0 x1 x2 x3 x4) (srcOf x1) (dstOf x1))
    (transpose S64x64 [1, 0] x5 transposes_S64x64_S64x64_1_0) (transpose S64x64 [1, 0] x7 transposes_S64x64_S64x64_1_0)
    (shapeCast S1x64 x6 shapeCasts_S64_S1x64) (transpose S64x3 [1, 0] x8 transposes_S3x64_S64x3_1_0)
    (shapeCast S1x3 x9 shapeCasts_S3_S1x3)

variable (m : (ℓ : Loc nD τ sig) → Buf (Elt Ideal) ℓ) (ρ : Dev nD → PrngReg)

/-- After the first region the hidden array is `hiddenOf` of the launch contents. -/
theorem hidden_after (c : Dev nD) :
    (dat0 (V1 m ρ) c).arrAt 5 cfg0.N = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  refine (final0 (V1 m ρ) c).trans ?_
  rw [entry1_node m ρ c, entry1_agg m ρ c, entry1_wrel m ρ c, entry1_wroot m ρ c, entry1_bias m ρ c]
  rfl

/-- At the last boundary the result buffer holds `kernelOut` of the launch contents. -/
theorem result_after (c : Dev nD) :
    W4 m ρ c (Proc.devRef .tc main_v33) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ((final1 (V3 m ρ) c).trans ?_)
  rw [entry2_hid m ρ c, entry2_agg m ρ c, entry2_wrel m ρ c, entry2_wroot m ρ c, entry2_bias m ρ c, entry2_wlin m ρ c,
    entry2_blin m ρ c, hidden_after m ρ c]
  rfl

/-- Every weakly fair execution terminates without a fault, the result buffer holding `kernelOut` of the arguments and
    the arguments unchanged. -/
theorem run_value : θ_run defs (onTc (τ := τ) (main (F := Ideal))) ⟨m, fun _ => 0, ρ⟩ (fun r => ∀ c : Dev nD,
      r.2.mem ((c.tc : Thread nD τ).loc main_v33) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_after m ρ c), (h c).2⟩) (run_result m ρ)

end Cert.KernelIdeal.Whole

end
-- ==== Proof.Entries.lean ====
/-
  The per-entry formulas of a two-layer graph convolution with a linear head, over the extended reals.

  One entry of a layer is a rectified sum of three terms: the aggregated neighbour row against a row of the neighbour
  weights, the layer's bias, and the node's own row against a row of the root weights. The kernel adds the bias last,
  the reference adds it second; addition on the extended reals is commutative and associative (with its convention
  at opposite infinities), so the two orders agree on every input and no finiteness is needed.
-/
import Idealize.ShloMosaic.PureOps.Ideal

noncomputable section

namespace Cert.GraphConv

/-- One entry of a rectified graph-convolution layer, the bias added between the two inner products (the
    reference's order): `max (⟨a, wr⟩ + b + ⟨x, wo⟩) z`, with `z` the rectifier's floor. -/
def layerEntry (a x wr wo : Fin 64 → EReal) (b z : EReal) : EReal :=
  max ((∑ j, a j * wr j) + b + ∑ j, x j * wo j) z

/-- Adding the bias after both inner products (the kernel's order) gives the same entry. -/
theorem layerEntry_of_bias_last (a x wr wo : Fin 64 → EReal) (b z : EReal) :
    max (((∑ j, a j * wr j) + ∑ j, x j * wo j) + b) z = layerEntry a x wr wo b z := by
  unfold layerEntry
  rw [add_right_comm]

/-- One entry of the linear head: a hidden row against a row of the head's weights, plus its bias. -/
def headEntry (h w : Fin 64 → EReal) (b : EReal) : EReal :=
  (∑ k, h k * w k) + b

end Cert.GraphConv

end
-- ==== Proof.RefEntries.lean ====
/-
  The reference's three stages, each read at one entry.

  The reference computes a rectified graph-convolution layer twice and then a linear head, each as whole-array host
  operations: a product with a transposed weight matrix is a sum over the 64 contracted positions, a transpose swaps
  the two coordinates, a broadcast of a bias vector reads the vector at the column. Read at entry (p, k) a layer is the
  per-entry formula of the aggregated row p, the input row p, row k of each weight matrix and the bias at k; read at
  (p, q) the head is the per-entry formula of the second layer's row p, row q of the head's weights and its bias at q.
  The aggregated arrays enter only through their rows: nothing about the aggregation itself is opened.
-/
import proofs.«160873_j33775622815757_1_alg».proof.Proof.Gen.ReferenceIdeal.Read
import proofs.«160873_j33775622815757_1_alg».proof.Proof.Entries

set_option maxRecDepth 16384

noncomputable section

namespace Cert.ReferenceIdeal.RefValue

open Cert.ReferenceIdeal Cert.ReferenceIdeal.Read Idealize.ShloMosaic Idealize.ShloMosaic.TcCoe Idealize.ShloMosaic.ValueIdx
open Cert.GraphConv

/-- The first layer at entry (p, k). -/
theorem layer1_entry (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (p : Fin 100000) (k : Fin 64) :
    val_main_v22 (F := Ideal) x0 x1 x2 x3 x4 (ix2 p k)
      = layerEntry (fun j => val_main_v13 (F := Ideal) x0 x1 (ix2 p j)) (fun j => x0 (ix2 p j))
          (fun j => x2 (ix2 k j)) (fun j => x4 (ix2 k j)) (x3 (ix1 k)) (Ideal.ofBits .f32 0x00000000#32) := by
  have e1 : ∀ j : Fin 64, lidx_main_v15 (ix2 p k) j = ix2 p j := fun j => funext fun a => Fin.ext (by match a with | ⟨0, _⟩ => rfl | ⟨1, _⟩ => rfl)
  have e2 : ∀ j : Fin 64, idx_main_v14 (ridx_main_v15 (ix2 p k) j) = ix2 k j := fun j => funext fun a => Fin.ext (by match a with | ⟨0, _⟩ => rfl | ⟨1, _⟩ => rfl)
  have e3 : ∀ j : Fin 64, lidx_main_v20 (ix2 p k) j = ix2 p j := fun j => funext fun a => Fin.ext (by match a with | ⟨0, _⟩ => rfl | ⟨1, _⟩ => rfl)
  have e4 : ∀ j : Fin 64, idx_main_v19 (ridx_main_v20 (ix2 p k) j) = ix2 k j := fun j => funext fun a => Fin.ext (by match a with | ⟨0, _⟩ => rfl | ⟨1, _⟩ => rfl)
  have e5 : idx_main_v16 (idx_main_v17 (ix2 p k)) = ix1 k := funext fun a => Fin.ext (by match a with | ⟨0, _⟩ => rfl)
  rw [val_main_v22_apply, val_main_v21_apply, val_main_v18_apply, val_main_v15_apply, val_main_v17_apply,
    val_main_v16_apply, val_main_v20_apply, val_main_call0_v0_apply, val_main_call0_cst_apply]
  simp only [val_main_v14_apply, val_main_v19_apply, e1, e2, e3, e4, e5]
  rfl

/-- The second layer at entry (p, k): the same formula over the first layer's array and its aggregate. -/
theorem layer2_entry (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (p : Fin 100000) (k : Fin 64) :
    val_main_v41 (F := Ideal) x0 x1 x2 x3 x4 x5 x6 x7 (ix2 p k)
      = layerEntry (fun j => val_main_v32 (F := Ideal) x0 x1 x2 x3 x4 (ix2 p j))
          (fun j => val_main_v22 (F := Ideal) x0 x1 x2 x3 x4 (ix2 p j))
          (fun j => x5 (ix2 k j)) (fun j => x7 (ix2 k j)) (x6 (ix1 k)) (Ideal.ofBits .f32 0x00000000#32) := by
  have e1 : ∀ j : Fin 64, lidx_main_v34 (ix2 p k) j = ix2 p j := fun j => funext fun a => Fin.ext (by match a with | ⟨0, _⟩ => rfl | ⟨1, _⟩ => rfl)
  have e2 : ∀ j : Fin 64, idx_main_v33 (ridx_main_v34 (ix2 p k) j) = ix2 k j := fun j => funext fun a => Fin.ext (by match a with | ⟨0, _⟩ => rfl | ⟨1, _⟩ => rfl)
  have e3 : ∀ j : Fin 64, lidx_main_v39 (ix2 p k) j = ix2 p j := fun j => funext fun a => Fin.ext (by match a with | ⟨0, _⟩ => rfl | ⟨1, _⟩ => rfl)
  have e4 : ∀ j : Fin 64, idx_main_v38 (ridx_main_v39 (ix2 p k) j) = ix2 k j := fun j => funext fun a => Fin.ext (by match a with | ⟨0, _⟩ => rfl | ⟨1, _⟩ => rfl)
  have e5 : idx_main_v35 (idx_main_v36 (ix2 p k)) = ix1 k := funext fun a => Fin.ext (by match a with | ⟨0, _⟩ => rfl)
  rw [val_main_v41_apply, val_main_v40_apply, val_main_v37_apply, val_main_v34_apply, val_main_v36_apply,
    val_main_v35_apply, val_main_v39_apply, val_main_call1_v0_apply, val_main_call1_cst_apply]
  simp only [val_main_v33_apply, val_main_v38_apply, e1, e2, e3, e4, e5]
  rfl

/-- The head at entry (p, q). -/
theorem head_entry (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S3x64, .f32⟩ : BufTy).Contents (Elt Ideal)) (x9 : (⟨S3, .f32⟩ : BufTy).Contents (Elt Ideal)) (p : Fin 100000) (q : Fin 3) :
    val_main_v46 (F := Ideal) x0 x1 x2 x3 x4 x5 x6 x7 x8 x9 (ix2 p q)
      = headEntry (fun k => val_main_v41 (F := Ideal) x0 x1 x2 x3 x4 x5 x6 x7 (ix2 p k)) (fun k => x8 (ix2 q k)) (x9 (ix1 q)) := by
  have e1 : ∀ k : Fin 64, lidx_main_v43 (ix2 p q) k = ix2 p k := fun k => funext fun a => Fin.ext (by match a with | ⟨0, _⟩ => rfl | ⟨1, _⟩ => rfl)
  have e2 : ∀ k : Fin 64, idx_main_v42 (ridx_main_v43 (ix2 p q) k) = ix2 q k := fun k => funext fun a => Fin.ext (by match a with | ⟨0, _⟩ => rfl | ⟨1, _⟩ => rfl)
  have e3 : idx_main_v44 (idx_main_v45 (ix2 p q)) = ix1 q := funext fun a => Fin.ext (by match a with | ⟨0, _⟩ => rfl)
  rw [val_main_v46_apply, val_main_v43_apply, val_main_v45_apply, val_main_v44_apply]
  simp only [val_main_v42_apply, e1, e2, e3]
  rfl

end Cert.ReferenceIdeal.RefValue

end
-- ==== Proof.Bridge.lean ====
/-
  The kernel's result and the reference's result are one function of the arguments.

  Both programs aggregate with the same host operations, so the two aggregated arrays are the same term of the array
  gathered from and the edge list. Entry (p, k) of a layer is, on the kernel's side, the rectified sum of the two inner
  products and then the bias, against weights the host has transposed and a bias it has reshaped to a row; on the
  reference's side the bias is added between the two inner products. The two are the same per-entry formula by
  commutativity and associativity of addition on the extended reals. Hence the hidden arrays agree entry by entry, so
  their aggregates agree, so the second layers agree, and the head, a sum over the 64 second-layer entries of a row
  plus a bias, agrees.
-/
import proofs.«160873_j33775622815757_1_alg».proof.Proof.KernelValue
import proofs.«160873_j33775622815757_1_alg».proof.Proof.RefEntries

set_option maxRecDepth 16384

noncomputable section

namespace Cert.Bridge

open Cert.KernelIdeal Cert.KernelIdeal.Gen Cert.KernelIdeal.Whole Cert.GraphConv
open Idealize.ShloMosaic Idealize.ShloMosaic.TcCoe Idealize.ShloMosaic.ValueIdx

/-! ## The host's layout operations at an entry -/

/-- A transposed 64×64 matrix at (j, k) is the matrix at (k, j). -/
theorem transpose64_apply {α : Type} (w : S64x64.Idx → α) (j k : Fin 64) :
    transpose S64x64 [1, 0] w transposes_S64x64_S64x64_1_0 (ix2 j k) = w (ix2 k j) :=
  transpose_apply [1, 0] w transposes_S64x64_S64x64_1_0 (ix2 j k) (ix2 k j) (fun b => match b with
    | ⟨0, _⟩ => rfl
    | ⟨1, _⟩ => rfl)

/-- The transposed [3, 64] head weights at (k, q) are the weights at (q, k). -/
theorem transposeHead_apply {α : Type} (w : S3x64.Idx → α) (k : Fin 64) (q : Fin 3) :
    transpose S64x3 [1, 0] w transposes_S3x64_S64x3_1_0 (ix2 k q) = w (ix2 q k) :=
  transpose_apply [1, 0] w transposes_S3x64_S64x3_1_0 (ix2 k q) (ix2 q k) (fun b => match b with
    | ⟨0, _⟩ => rfl
    | ⟨1, _⟩ => rfl)

/-- A 64-vector reshaped to a [1, 64] row, at (0, k), is the vector at k. -/
theorem row64_apply {α : Type} (v : S64.Idx → α) (k : Fin 64) :
    shapeCast S1x64 v shapeCasts_S64_S1x64 (ix2 (0 : Fin 1) k) = v (ix1 k) :=
  shapeCast_apply v shapeCasts_S64_S1x64 (ix2 (0 : Fin 1) k) (ix1 k) (by
    rewrite [Shape.rowMajor_val_one, Shape.rowMajor_val_two]; show k.val = 0 * 64 + k.val; omega)

/-- A 3-vector reshaped to a [1, 3] row, at (0, q), is the vector at q. -/
theorem row3_apply {α : Type} (v : S3.Idx → α) (q : Fin 3) :
    shapeCast S1x3 v shapeCasts_S3_S1x3 (ix2 (0 : Fin 1) q) = v (ix1 q) :=
  shapeCast_apply v shapeCasts_S3_S1x3 (ix2 (0 : Fin 1) q) (ix1 q) (by
    rewrite [Shape.rowMajor_val_one, Shape.rowMajor_val_two]; show q.val = 0 * 3 + q.val; omega)

/-- A layer entry over transposed weights and a reshaped bias is the per-entry formula over the weights' rows: the
    kernel's order of the three terms is the reference's. -/
theorem hiddenAt_transposed (x a : S100000x64.Idx → EReal) (w1 w2 : S64x64.Idx → EReal) (bv : S64.Idx → EReal)
    (p : Fin 100000) (k : Fin 64) :
    hiddenAt x a (transpose S64x64 [1, 0] w1 transposes_S64x64_S64x64_1_0) (transpose S64x64 [1, 0] w2 transposes_S64x64_S64x64_1_0)
        (shapeCast S1x64 bv shapeCasts_S64_S1x64) p k
      = layerEntry (fun j => a (ix2 p j)) (fun j => x (ix2 p j)) (fun j => w1 (ix2 k j)) (fun j => w2 (ix2 k j)) (bv (ix1 k))
          (Ideal.ofBits .f32 0x00000000#32) := by
  unfold hiddenAt layerEntry
  rw [row64_apply, add_right_comm]
  exact congrArg₂ max (congrArg₂ HAdd.hAdd (congrArg₂ HAdd.hAdd
      (Finset.sum_congr rfl fun j _ => congrArg₂ HMul.hMul rfl (transpose64_apply w1 j k)) rfl)
      (Finset.sum_congr rfl fun j _ => congrArg₂ HMul.hMul rfl (transpose64_apply w2 j k))) rfl

/-! ## The two programs' aggregations are one term -/

theorem aggregate_eq_ref1 (x0 : (⟨S100000x64, .f32⟩ : BufTy).Contents (Elt Ideal)) (x1 : (⟨S2x1600000, .i32⟩ : BufTy).Contents (Elt Ideal)) :
    aggregate x0 (srcOf x1) (dstOf x1) = Cert.ReferenceIdeal.Read.val_main_v13 (F := Ideal) x0 x1 := rfl

theorem aggregate_eq_ref2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    aggregate (Cert.ReferenceIdeal.Read.val_main_v22 (F := Ideal) x0 x1 x2 x3 x4) (srcOf x1) (dstOf x1)
      = Cert.ReferenceIdeal.Read.val_main_v32 (F := Ideal) x0 x1 x2 x3 x4 := rfl

/-! ## The hidden arrays, then the results -/

/-- The kernel's hidden array is the reference's first layer. -/
theorem hiddenOf_eq_ref (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    hiddenOf x0 x1 x2 x3 x4 = Cert.ReferenceIdeal.Read.val_main_v22 (F := Ideal) x0 x1 x2 x3 x4 := by
  funext i
  obtain ⟨p, k, rfl⟩ : ∃ (p : Fin 100000) (k : Fin 64), i = ix2 p k := ⟨i 0, i 1, eq_ix2 i⟩
  rw [Cert.ReferenceIdeal.RefValue.layer1_entry]
  unfold hiddenOf
  rw [hidden_ix2, hiddenAt_transposed, aggregate_eq_ref1]

/-- The kernel's result is the reference's. -/
theorem kernelOut_eq_ref (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S3x64, .f32⟩ : BufTy).Contents (Elt Ideal)) (x9 : (⟨S3, .f32⟩ : BufTy).Contents (Elt Ideal)) :
    kernelOut x0 x1 x2 x3 x4 x5 x6 x7 x8 x9 = Cert.ReferenceIdeal.Read.val_main_v46 (F := Ideal) x0 x1 x2 x3 x4 x5 x6 x7 x8 x9 := by
  funext i
  obtain ⟨p, q, rfl⟩ : ∃ (p : Fin 100000) (q : Fin 3), i = ix2 p q := ⟨i 0, i 1, eq_ix2 i⟩
  rw [Cert.ReferenceIdeal.RefValue.head_entry]
  unfold kernelOut
  rw [result_ix2]
  unfold resultAt headEntry
  rw [row3_apply]
  refine congrArg₂ HAdd.hAdd (Finset.sum_congr rfl fun k _ => congrArg₂ HMul.hMul ?_ (transposeHead_apply x8 k q)) rfl
  show hiddenAt _ _ _ _ _ p k = Cert.ReferenceIdeal.Read.val_main_v41 (F := Ideal) x0 x1 x2 x3 x4 x5 x6 x7 (ix2 p k)
  rw [hiddenAt_transposed, Cert.ReferenceIdeal.RefValue.layer2_entry, hiddenOf_eq_ref, aggregate_eq_ref2]

end Cert.Bridge

end
-- ==== Proof.lean ====
/-
  A two-layer graph convolution with a linear head, 100000 nodes, 1.6 million edges, 64 features, 3 outputs: the kernel
  against its reference, over the extended reals.

  Both programs aggregate neighbour rows on the host — gather the rows at the edges' sources, scatter-add them into zeros
  at the destinations — and both do it with the same operations, so the aggregation is carried as one function and never
  opened. The kernel runs each layer's dense part in a kernel region over ten blocks of 10000 rows: the first region
  stores max ((agg · Wrelᵀ + x · Wrootᵀ) + b, 0), the second forms the second layer the same way from the first region's
  output and its aggregate and stores that layer times the head's transposed weights plus the head's bias. The
  reference computes max ((agg · Wrelᵀ + b) + x · Wrootᵀ, 0) twice and then the head, as whole-array operations.

  Over the extended reals a change of float format is the identity and a matrix product is the textbook sum, on the
  matrix unit and on the host alike, so each entry of each layer is the same three terms added in two orders; addition
  on the extended reals is commutative and associative everywhere, so the entries are equal on every input and the
  precondition (finite inputs) is not used. A row block of a layer depends only on the same rows of its operands, so the
  ten blocks each region writes back are the ten row blocks of one whole-array function, and they tile the output.

  The three frames: the two kernel programs' are the generated frame certificates; the reference has no kernel, and its
  frame is its run with the result forgotten. The idealization rewrote nothing, so `preserves` is trivial.
-/
import proofs.«160873_j33775622815757_1_alg».proof.Defs
import proofs.«160873_j33775622815757_1_alg».proof.Proof.Gen.Kernel
import proofs.«160873_j33775622815757_1_alg».proof.Proof.Gen.Kernel.Skeleton
import proofs.«160873_j33775622815757_1_alg».proof.Proof.Gen.Kernel.Launch
import proofs.«160873_j33775622815757_1_alg».proof.Proof.Gen.Kernel.Points
import proofs.«160873_j33775622815757_1_alg».proof.Proof.Gen.Kernel.Frame
import proofs.«160873_j33775622815757_1_alg».proof.Proof.Gen.KernelIdeal
import proofs.«160873_j33775622815757_1_alg».proof.Proof.Gen.KernelIdeal.Skeleton
import proofs.«160873_j33775622815757_1_alg».proof.Proof.Gen.KernelIdeal.Launch
import proofs.«160873_j33775622815757_1_alg».proof.Proof.Gen.KernelIdeal.Points
import proofs.«160873_j33775622815757_1_alg».proof.Proof.Gen.KernelIdeal.Frame
import proofs.«160873_j33775622815757_1_alg».proof.Proof.Gen.ReferenceIdeal
import proofs.«160873_j33775622815757_1_alg».proof.Proof.Gen.ReferenceIdeal.Run
import proofs.«160873_j33775622815757_1_alg».proof.Proof.Gen.ReferenceIdeal.Read
import proofs.«160873_j33775622815757_1_alg».proof.Proof.Gen.Pre_finite_inputs
import proofs.«160873_j33775622815757_1_alg».proof.Proof.KernelValue
import proofs.«160873_j33775622815757_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its frame is its run, the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the ten arguments the kernel's result buffer ends at its closed form of the arguments
    and the reference's at its composed term of the same arguments: one function, entry by entry. -/
theorem algebraic : Cert.algebraic_KernelIdeal_ReferenceIdeal := by
  intro m ρ m' ρ' _ hagree
  refine ⟨fun c => Cert.KernelIdeal.Whole.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v46_eq, h0, h1, h2, h3, h4, h5, h6, h7, h8, h9]
  exact (Cert.Bridge.kernelOut_eq_ref _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
